-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000 : Shape := ⟨1, ![1000000]⟩
abbrev S1x256 : Shape := ⟨2, ![1, 256]⟩
abbrev S_ : Shape := ⟨0, ![]⟩

class Facts : Prop where
  bcast_S_S1000000 : S_.BroadcastsInDim S1000000 (![] : Fin 0 → Fin S1000000.rank)
  reducesTo_S1000000_S_d0 : S1000000.ReducesTo [0] S_
  h_S_ : 0 < S_.numel
  bcast_S_S1x256 : S_.BroadcastsInDim S1x256 (![] : Fin 0 → Fin S1x256.rank)
  reducesTo_S1x256_S_d0_1 : S1x256.ReducesTo [0, 1] S_

variable [Facts]

def fn {F : FTy → Type} [FloatOps F] (main_arg0 : FVec F S1000000 .f32) (main_arg1 : FVec F S1x256 .f32) : IVec S_ 1 :=
  let main_v0 : FVec F S1000000 .f32 := Host.absf main_arg0
  let main_cst : FVec F S_ .f32 := constant S_ .f32 0x7F800000#32
  let main_v1 : FVec F S1000000 .f32 := broadcastInDim S1000000 ![] bcast_S_S1000000 main_cst
  let main_v2 : IVec S1000000 1 := cmpf .olt main_v0 main_v1
  let main_c : IVec S_ 1 := constantI S_ 1 1#1
  let main_v3 : IVec S_ 1 := (fun x v => Host.reduce IntOp.andi x v reducesTo_S1000000_S_d0 h_S_) main_v2 main_c
  let main_v4 : FVec F S1x256 .f32 := Host.absf main_arg1
  let main_cst_0 : FVec F S_ .f32 := constant S_ .f32 0x7F800000#32
  let main_v5 : FVec F S1x256 .f32 := broadcastInDim S1x256 ![] bcast_S_S1x256 main_cst_0
  let main_v6 : IVec S1x256 1 := cmpf .olt main_v4 main_v5
  let main_c_1 : IVec S_ 1 := constantI S_ 1 1#1
  let main_v7 : IVec S_ 1 := (fun x v => Host.reduce IntOp.andi x v reducesTo_S1x256_S_d0_1 h_S_) main_v6 main_c_1
  let main_v8 : IVec S_ 1 := andi main_v3 main_v7
  main_v8
-- ==== Kernel.lean ====
abbrev S1000000 : Shape := ⟨1, ![1000000]⟩
abbrev S1x256 : Shape := ⟨2, ![1, 256]⟩
abbrev S1000000x1 : Shape := ⟨2, ![1000000, 1]⟩
abbrev S1000000x256 : Shape := ⟨2, ![1000000, 256]⟩
abbrev S8000x1 : Shape := ⟨2, ![8000, 1]⟩
abbrev S8000x256 : Shape := ⟨2, ![8000, 256]⟩

abbrev nBuf : Space → Nat
  | .hbm => 4
  | .vmem => 5
  | .smem => 0
  | _ => 0

abbrev bufTy : (tb : Table) → Fin (tcTables nBuf tb) → BufTy
  | .hbm, ⟨0, _⟩ => ⟨S1000000, .f32⟩
  | .hbm, ⟨1, _⟩ => ⟨S1x256, .f32⟩
  | .hbm, ⟨2, _⟩ => ⟨S1000000x1, .f32⟩
  | .hbm, ⟨3, _⟩ => ⟨S1000000x256, .f32⟩
  | .local _ .vmem, ⟨0, _⟩ => ⟨S8000x1, .f32⟩
  | .local _ .vmem, ⟨1, _⟩ => ⟨S8000x1, .f32⟩
  | .local _ .vmem, ⟨2, _⟩ => ⟨S1x256, .f32⟩
  | .local _ .vmem, ⟨3, _⟩ => ⟨S8000x256, .f32⟩
  | .local _ .vmem, ⟨4, _⟩ => ⟨S8000x256, .f32⟩
  | _, _ => ⟨S1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S1000000_S1000000x1 : S1000000.ShapeCasts S1000000x1
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  inb_S1x256_S1x256_0_0 : ∀ a, (![0, 0] : Fin 2 → Nat) a + S1x256.size a ≤ S1x256.size a
  h_S1x256 : 0 < S1x256.numel
  broadcasts_S8000x1_S8000x256 : S8000x1.Broadcasts S8000x256
  broadcasts_S1x256_S8000x256 : S1x256.Broadcasts S8000x256
  inb_S8000x256_S8000x256_0_0 : ∀ a, (![0, 0] : Fin 2 → Nat) a + S8000x256.size a ≤ S8000x256.size a
  h_S8000x256 : 0 < S8000x256.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x1.size a ≤ S1000000x1.size a
  hwx0_0 : ∀ i : grid0.Coords, EltTy.bits .f32 = 32 ∨ (Rect.block (s := S1000000x1) S8000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x256.size a
  hwx0_1 : ∀ i : grid0.Coords, EltTy.bits .f32 = 32 ∨ (Rect.block (s := S1x256) S1x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x256.size a ≤ S1000000x256.size a
  hwx0_2 : ∀ i : grid0.Coords, EltTy.bits .f32 = 32 ∨ (Rect.block (s := S1000000x256) S8000x256.size (cc0_transform_2 i) (hinb0_2 i)).WholeWords (EltTy.packing .f32)

variable [Facts₀]

abbrev win0_0 : Pipeline.Window sig grid0 :=
  Pipeline.Window.ofSpec (Memref.whole main_v0) S8000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1000000 : Shape := ⟨1, ![1000000]⟩
abbrev S1x256 : Shape := ⟨2, ![1, 256]⟩
abbrev S1000000x1 : Shape := ⟨2, ![1000000, 1]⟩
abbrev S256 : Shape := ⟨1, ![256]⟩
abbrev S1000000x256 : Shape := ⟨2, ![1000000, 256]⟩

abbrev nBuf : Space → Nat
  | .hbm => 8
  | .vmem => 0
  | .smem => 0
  | _ => 0

abbrev bufTy : (tb : Table) → Fin (tcTables nBuf tb) → BufTy
  | .hbm, ⟨0, _⟩ => ⟨S1000000, .f32⟩
  | .hbm, ⟨1, _⟩ => ⟨S1x256, .f32⟩
  | .hbm, ⟨2, _⟩ => ⟨S1000000x1, .f32⟩
  | .hbm, ⟨3, _⟩ => ⟨S256, .f32⟩
  | .hbm, ⟨4, _⟩ => ⟨S1x256, .f32⟩
  | .hbm, ⟨5, _⟩ => ⟨S1000000x256, .f32⟩
  | .hbm, ⟨6, _⟩ => ⟨S1000000x256, .f32⟩
  | .hbm, ⟨7, _⟩ => ⟨S1000000x256, .f32⟩
  | _, _ => ⟨S1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]

class Facts₀ : Prop where
  bcast_S1000000_S1000000x1_0 : S1000000.BroadcastsInDim S1000000x1 (![0] : Fin 1 → Fin S1000000x1.rank)
  shapeCasts_S1x256_S256 : S1x256.ShapeCasts S256
  bcast_S256_S1x256_1 : S256.BroadcastsInDim S1x256 (![1] : Fin 1 → Fin S1x256.rank)
  bcast_S1000000x1_S1000000x256_0_1 : S1000000x1.BroadcastsInDim S1000000x256 (![0, 1] : Fin 2 → Fin S1000000x256.rank)
  bcast_S1x256_S1000000x256_0_1 : S1x256.BroadcastsInDim S1000000x256 (![0, 1] : Fin 2 → Fin S1000000x256.rank)

variable [Facts₀]

class Facts : Prop extends Facts₀ where

variable [Facts]
-- ==== Proof.OuterProduct.lean ====
/-
  The function both programs compute: the rank-one (outer) product of a vector of 1000000 entries with a row of 256
  entries. Entry (n, k) of the result is the n-th entry of the vector times the k-th entry of the row; nothing else
  enters it, no constant and no sum, so the same term serves every float instance and no law of the extended reals is
  used. Indices are built from literal coordinates: a vector index from one coordinate below 1000000, a row index from
  the coordinate 0 of its unit axis and one coordinate below 256.
-/
import Idealize.ShloMosaic.PureOps.Ideal
import Idealize.ShloMosaic.Lib.ValueIdx

noncomputable section

namespace Cert.OuterProduct

open Idealize.ShloMosaic Idealize.ShloMosaic.ValueIdx

variable {F : FTy → Type} [FloatOps F]

/-- The row of the result an index lies in, as an index of the vector. -/
abbrev rowOf (i : (⟨2, ![1000000, 256]⟩ : Shape).Idx) : (⟨1, ![1000000]⟩ : Shape).Idx :=
  ix1 (⟨(i 0).val, idx2_lt0 i⟩ : Fin 1000000)

/-- The column of the result an index lies in, as an index of the [1, 256] row. -/
abbrev colOf (i : (⟨2, ![1000000, 256]⟩ : Shape).Idx) : (⟨2, ![1, 256]⟩ : Shape).Idx :=
  ix2 (0 : Fin 1) (⟨(i 1).val, idx2_lt1 i⟩ : Fin 256)

/-- The outer product: entry (n, k) is `d n · e (0, k)`. -/
def outer (d : (⟨1, ![1000000]⟩ : Shape).Idx → Elt F .f32) (e : (⟨2, ![1, 256]⟩ : Shape).Idx → Elt F .f32) :
    (⟨2, ![1000000, 256]⟩ : Shape).Idx → Elt F .f32 :=
  fun i => FloatOps.mulf (d (rowOf i)) (e (colOf i))

theorem outer_apply (d : (⟨1, ![1000000]⟩ : Shape).Idx → Elt F .f32) (e : (⟨2, ![1, 256]⟩ : Shape).Idx → Elt F .f32)
    (i : (⟨2, ![1000000, 256]⟩ : Shape).Idx) : outer d e i = FloatOps.mulf (d (rowOf i)) (e (colOf i)) := rfl

end Cert.OuterProduct

end
-- ==== Proof.ReferenceOuter.lean ====
/-
  The reference is the outer product. It lays the vector out as a column [1000000, 1] and the row's 256 entries as
  [1, 256], repeats the column along the 256 columns and the row along the 1000000 rows, and multiplies entry by
  entry. Read at an index (n, k), the repeated column is the vector's n-th entry (the unit axis contributes the
  coordinate 0) and the repeated row is the row's entry (0, k): flattening [1, 256] to [256] and laying it out again as
  [1, 256] keeps the row-major position k, and k is below 256, so the remainder of k by 256 is k itself.
-/
import proofs.«170080_j23287312679168_2_alg».proof.Proof.Gen.ReferenceIdeal.Read
import proofs.«170080_j23287312679168_2_alg».proof.Proof.OuterProduct

noncomputable section

namespace Cert.ReferenceIdeal.RefValue

open Cert.ReferenceIdeal Cert.ReferenceIdeal.Gen Cert.ReferenceIdeal.Read Idealize.ShloMosaic Idealize.ShloMosaic.ValueIdx
open Cert.OuterProduct

variable {F : FTy → Type} [FloatOps F]

/-- Through the two layout steps on the vector's side, the index (n, k) reads the vector at n. -/
theorem row_index (i : S1000000x256.Idx) : idx_main_v0 (idx_main_v3 i) = rowOf i :=
  funext fun a => Fin.ext (by match a with | ⟨0, _⟩ => rfl)

/-- Through the three layout steps on the row's side, the index (n, k) reads the row at (0, k). -/
theorem col_index (i : S1000000x256.Idx) : idx_main_v1 (idx_main_v2 (idx_main_v4 i)) = colOf i :=
  funext fun a => Fin.ext (by
    match a with
    | ⟨0, _⟩ => rfl
    | ⟨1, _⟩ => show (i 1).val % 256 = (i 1).val; exact Nat.mod_eq_of_lt (idx2_lt1 i))

/-- The reference's last stage, the entrywise product of the two repeated arrays, is the outer product of its
    arguments. -/
theorem val_eq_outer (x0 : (⟨S1000000, .f32⟩ : BufTy).Contents (Elt F)) (x1 : (⟨S1x256, .f32⟩ : BufTy).Contents (Elt F)) :
    val_main_v5 (F := F) x0 x1 = outer x0 x1 := by
  funext i
  rw [val_main_v5_apply, val_main_v3_apply, val_main_v0_apply, val_main_v4_apply, val_main_v2_apply, val_main_v1_apply,
    row_index, col_index, outer_apply]

end Cert.ReferenceIdeal.RefValue

end
-- ==== Proof.KernelOuter.lean ====
/-
  The kernel's result array is the outer product. The array is written in 125 blocks of 8000 rows by 256 columns, one
  per grid point, block t holding rows 8000·t … 8000·t + 7999. At point t the body multiplies, entry by entry, the
  point's 8000 entries of the column (repeated along the 256 columns) with the row's 256 entries (repeated along the
  8000 rows), so entry (p, q) of the block is column entry p of the point times row entry q. The column is the
  argument vector laid out as [1000000, 1] before the launch, so the point's p-th entry is the vector's entry
  8000·t + p; the row is the same at every point. Hence block t is rows 8000·t … of the outer product, and since every
  row n lies in the block of the point n / 8000, the blocks fill the whole array.
-/
import proofs.«170080_j23287312679168_2_alg».proof.Proof.Gen.KernelIdeal.Value
import proofs.«170080_j23287312679168_2_alg».proof.Proof.OuterProduct
import Idealize.ShloMosaic.Lib.Pipeline.Value
import Idealize.ShloMosaic.Lib.StableHlo.Run
import Idealize.ShloMosaic.Lib.ValueIdx

noncomputable section

namespace Cert.KernelIdeal.KernelValue

open Cert.KernelIdeal Cert.KernelIdeal.Gen Cert.KernelIdeal.Value
open Idealize.ShloMosaic Idealize.ShloMosaic.TcCoe Idealize.SL.Sem Idealize.ShloMosaic.ValueIdx Idealize.ShloMosaic.StableHlo
open Idealize.ShloMosaic.Pipeline (Dat)
open Cert.OuterProduct

variable {F : FTy → Type} [FloatOps F]
variable (m : (ℓ : Loc nD τ sig) → Buf (Elt F) ℓ) (ρ : Dev nD → PrngReg)

theorem zero_offsets : (![0, 0] : Fin 2 → Nat) = fun _ => 0 := funext fun a => by fin_cases a <;> rfl

/-! ## One block as a function of the point's two input blocks -/

/-- Entry (p, q) of what the body leaves in the output block is entry p of the column block times entry q of the
    row block. -/
theorem block_apply (P0 : Vec F S8000x1 .f32) (P1 : Vec F S1x256 .f32) (p : Fin 8000) (q : Fin 256) :
    out0_2 P0 P1 (ix2 p q) = FloatOps.mulf (P0 (ix2 p (0 : Fin 1))) (P1 (ix2 (0 : Fin 1) q)) := by
  unfold out0_2
  simp only [View.ld_unit_zero (S := S8000x1) zero_offsets, View.ld_unit_zero (S := S1x256) zero_offsets]
  rw [canon2_eq]
  show FloatOps.mulf (P0 (ix2_0 (ix2 p q))) (P1 (ix2_1 (ix2 p q))) = _
  have e0 : ix2_0 (ix2 p q) = ix2 p (0 : Fin 1) :=
    funext fun a => Fin.ext (by match a with | ⟨0, _⟩ => rfl | ⟨1, _⟩ => rfl)
  have e1 : ix2_1 (ix2 p q) = ix2 (0 : Fin 1) q :=
    funext fun a => Fin.ext (by match a with | ⟨0, _⟩ => rfl | ⟨1, _⟩ => rfl)
  rw [e0, e1]

/-! ## The column the launch finds: the argument vector laid out as [1000000, 1] -/

/-- Before the launch the vector is laid out as a column, and nothing else touches that array. -/
theorem column_eq (c : Dev nD) :
    (V m c main_v0 : S1000000x1.Idx → Elt F .f32)
      = shapeCast S1000000x1 (m ((c : Thread nD τ).loc main_arg0)) shapeCasts_S1000000_S1000000x1 := by
  dsimp only [Gen.V, Gen.hostOps0]; after_results; rfl

/-- Entry (r, 0) of the column is entry r of the vector: the two have the same row-major position. -/
theorem column_apply (c : Dev nD) (r : Fin 1000000) :
    (V m c main_v0 : S1000000x1.Idx → Elt F .f32) (ix2 r (0 : Fin 1))
      = (m ((c : Thread nD τ).loc main_arg0) : S1000000.Idx → Elt F .f32) (ix1 r) := by
  refine (congrFun (column_eq m c) (ix2 r (0 : Fin 1))).trans ?_
  exact shapeCast_apply _ shapeCasts_S1000000_S1000000x1 (ix2 r (0 : Fin 1)) (ix1 r)
    (by rw [Shape.rowMajor_val_one, Shape.rowMajor_val_two]; show r.val = r.val * 1 + 0; omega)

/-! ## Where each point's blocks sit -/

/-- The three index maps over the 125 points: the column's and the output's block index along the rows is the point
    itself, every other block index is 0. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT t WRITES BACK is block t of the outer product of the two arguments. -/
theorem written_block (c : Dev nD) (t : Fin cfg0.N) :
    (dats m 0 c).flushed 2 t = ((cfg0.win 2).blk t).view.read (Elt F)
      (outer (m ((c : Thread nD τ).loc main_arg0)) (m ((c : Thread nD τ).loc main_arg1))) := by
  rw [flushed2]
  obtain ⟨a0, a1, b0, b1, o0, o1⟩ := index_facts t
  have ht : t.val < 125 := lt_of_lt_of_eq t.isLt N_0
  refine funext fun (y : S8000x256.Idx) => ?_
  obtain ⟨p, q, rfl⟩ : ∃ (p : Fin 8000) (q : Fin 256), y = ix2 p q := ⟨y 0, y 1, eq_ix2 y⟩
  show out0_2 (iblk m c 0 t) (iblk m c 1 t) (ix2 p q)
    = outer (m ((c : Thread nD τ).loc main_arg0)) (m ((c : Thread nD τ).loc main_arg1)) (((cfg0.win 2).blk t).view.emb (ix2 p q))
  refine (block_apply (iblk m c 0 t) (iblk m c 1 t) p q).trans ?_
  rw [outer_apply]
  have hp : t.val * 8000 + p.val < 1000000 := by have := p.isLt; omega
  -- the point's p-th column entry is the vector's entry 8000·t + p
  have hd : (iblk m c 0 t : Vec F S8000x1 .f32) (ix2 p (0 : Fin 1))
      = (m ((c : Thread nD τ).loc main_arg0) : S1000000.Idx → Elt F .f32) (rowOf (((cfg0.win 2).blk t).view.emb (ix2 p q))) := by
    show (V m c main_v0 : S1000000x1.Idx → Elt F .f32) (((cfg0.win 0).blk t).view.emb (ix2 p (0 : Fin 1))) = _
    have hk : ((cfg0.win 0).blk t).view.emb (ix2 p (0 : Fin 1))
        = (ix2 (⟨t.val * 8000 + p.val, hp⟩ : Fin 1000000) (0 : Fin 1) : S1000000x1.Idx) := by
      funext a; apply Fin.ext
      match a with
      | ⟨0, _⟩ => show win0_0.index t (0 : Fin 2) * 8000 + 1 * p.val = t.val * 8000 + p.val; rw [a0]; omega
      | ⟨1, _⟩ => show win0_0.index t (1 : Fin 2) * 1 + 1 * 0 = 0; rw [a1]
    rw [hk, column_apply]
    refine congrArg _ ?_
    funext a; apply Fin.ext
    match a with
    | ⟨0, _⟩ => show t.val * 8000 + p.val = win0_2.index t (0 : Fin 2) * 8000 + 1 * p.val; rw [o0]; omega
  -- the row block is the row itself, at every point
  have he : (iblk m c 1 t : Vec F S1x256 .f32) (ix2 (0 : Fin 1) q)
      = (m ((c : Thread nD τ).loc main_arg1) : S1x256.Idx → Elt F .f32) (colOf (((cfg0.win 2).blk t).view.emb (ix2 p q))) := by
    show (V m c main_arg1 : S1x256.Idx → Elt F .f32) (((cfg0.win 1).blk t).view.emb (ix2 (0 : Fin 1) q)) = _
    rw [V_main_arg1 m c]
    refine congrArg _ ?_
    funext a; apply Fin.ext
    match a with
    | ⟨0, _⟩ => show win0_1.index t (0 : Fin 2) * 1 + 1 * 0 = 0; rw [b0]
    | ⟨1, _⟩ => show win0_1.index t (1 : Fin 2) * 256 + 1 * q.val = win0_2.index t (1 : Fin 2) * 256 + 1 * q.val; rw [b1, o1]
  rw [hd, he]

/-! ## The blocks fill the array -/

/-- An index of the array is in point t's block iff each coordinate is in the block's range on its axis. -/
theorem mem_block (t : Fin cfg0.N) (i : S1000000x256.Idx) :
    i ∈ ((cfg0.win 2).blk t).view.set ↔ ∀ a : Fin 2, win0_2.index t a * S8000x256.size a ≤ (i a).val
      ∧ (i a).val < win0_2.index t a * S8000x256.size a + S8000x256.size a := by
  show i ∈ ((View.whole main_v1).slice (win0_2.rect t)).set ↔ _
  rw [View.set_slice_whole, Rect.mem_set_unit]
  exact Iff.rfl

/-- Row n lies in the block of the point n / 8000, and every point writes its block back. -/
theorem covered (i : S1000000x256.Idx) :
    ∃ t : Fin cfg0.N, (cfg0.win 2).flush t = true ∧ i ∈ ((cfg0.win 2).blk t).view.set := by
  have h0 : (i 0).val < 1000000 := idx2_lt0 i
  have h1 : (i 1).val < 256 := idx2_lt1 i
  have hN : cfg0.N = 125 := N_0
  obtain ⟨t, ht⟩ : ∃ t : Fin cfg0.N, t.val = (i 0).val / 8000 := ⟨⟨(i 0).val / 8000, by rw [hN]; omega⟩, rfl⟩
  obtain ⟨-, -, -, -, o0, o1⟩ := index_facts t
  refine ⟨t, flush0_2 t, ?_⟩
  rw [mem_block]
  intro a
  match a with
  | ⟨0, _⟩ =>
    show win0_2.index t (0 : Fin 2) * 8000 ≤ (i 0).val ∧ (i 0).val < win0_2.index t (0 : Fin 2) * 8000 + 8000
    rw [o0, ht]; omega
  | ⟨1, _⟩ =>
    show win0_2.index t (1 : Fin 2) * 256 ≤ (i 1).val ∧ (i 1).val < win0_2.index t (1 : Fin 2) * 256 + 256
    rw [o1]; omega

/-- THE ARRAY after the run is the outer product of the two arguments. -/
theorem result_eq (c : Dev nD) : (dats m 0 c).arrAt 2 cfg0.N
    = outer (m ((c : Thread nD τ).loc main_arg0)) (m ((c : Thread nD τ).loc main_arg1)) :=
  (dats m 0 c).arrAt_eq_of_cover 2 (outer (m ((c : Thread nD τ).loc main_arg0)) (m ((c : Thread nD τ).loc main_arg1)))
    (fun t _ => written_block m c t) (fun i => covered i)

/-! ## The run, read -/

/-- Every weakly fair execution ends with the result array at the outer product of the arguments, the arguments
    unchanged. -/
theorem run : θ_run defs (onTc (τ := τ) (main (F := F))) ⟨m, fun _ => 0, ρ⟩ fun r => ∀ c : Dev nD,
      r.2.mem ((c : Thread nD τ).loc main_v1) = outer (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result_eq m c), (h c).2⟩) (run_blocks m ρ)

end Cert.KernelIdeal.KernelValue

end
-- ==== Proof.lean ====
/-
  The certificate of the tiled outer product. The kernel lays its vector argument (1000000 entries) out as a column
  and writes the [1000000, 256] result in 125 blocks of 8000 rows, each block the entrywise product of the point's 8000
  column entries, repeated along the columns, with the row's 256 entries, repeated along the rows. The reference
  repeats the whole column and the whole row to [1000000, 256] and multiplies once. Both results are the outer product
  `out (n, k) = d n · e (0, k)` of the two arguments: the reference by reading its layout steps at an index
  (Proof/ReferenceOuter.lean), the kernel because block t is rows 8000·t … 8000·t + 7999 of the outer product and the
  125 blocks fill the array (Proof/KernelOuter.lean). The two sides are the same term of the arguments, one product per
  entry, so no law of the extended reals is needed and the finiteness of the inputs is not used. The idealization
  rewrote nothing, so what it preserves is the trivial statement. The frames of the two kernel programs are the
  generated ones; the reference's frame is its generated run with the result dropped.
-/
import proofs.«170080_j23287312679168_2_alg».proof.Defs
import proofs.«170080_j23287312679168_2_alg».proof.Proof.Gen.Kernel
import proofs.«170080_j23287312679168_2_alg».proof.Proof.Gen.Kernel.Skeleton
import proofs.«170080_j23287312679168_2_alg».proof.Proof.Gen.Kernel.Launch
import proofs.«170080_j23287312679168_2_alg».proof.Proof.Gen.Kernel.Points
import proofs.«170080_j23287312679168_2_alg».proof.Proof.Gen.Kernel.Frame
import proofs.«170080_j23287312679168_2_alg».proof.Proof.Gen.KernelIdeal
import proofs.«170080_j23287312679168_2_alg».proof.Proof.Gen.KernelIdeal.Skeleton
import proofs.«170080_j23287312679168_2_alg».proof.Proof.Gen.KernelIdeal.Launch
import proofs.«170080_j23287312679168_2_alg».proof.Proof.Gen.KernelIdeal.Points
import proofs.«170080_j23287312679168_2_alg».proof.Proof.Gen.KernelIdeal.Frame
import proofs.«170080_j23287312679168_2_alg».proof.Proof.Gen.ReferenceIdeal
import proofs.«170080_j23287312679168_2_alg».proof.Proof.Gen.Pre_finite_inputs
import proofs.«170080_j23287312679168_2_alg».proof.Proof.Gen.KernelIdeal.Value
import proofs.«170080_j23287312679168_2_alg».proof.Proof.Gen.ReferenceIdeal.Run
import proofs.«170080_j23287312679168_2_alg».proof.Proof.Gen.ReferenceIdeal.Read
import proofs.«170080_j23287312679168_2_alg».proof.Proof.OuterProduct
import proofs.«170080_j23287312679168_2_alg».proof.Proof.ReferenceOuter
import proofs.«170080_j23287312679168_2_alg».proof.Proof.KernelOuter
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's run ends with its arguments unchanged. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the two arguments both programs end with the result array at the outer product of
    those arguments. -/
theorem algebraic : Cert.algebraic_KernelIdeal_ReferenceIdeal := by
  intro m ρ m' ρ' _ hagree
  refine ⟨fun c => Cert.OuterProduct.outer (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KernelValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.val_eq_outer, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
